-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S16384x512 .f32) (main_arg1 : FVec F S1024x512 .f32) (main_arg2 : FVec F S1024 .f32) (main_arg3 : FVec F S1x1024 .f32) (main_arg4 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Kernel.lean ====
abbrev S16384x512 : Shape := ⟨2, ![16384, 512]⟩
abbrev S1024x512 : Shape := ⟨2, ![1024, 512]⟩
abbrev S1024 : Shape := ⟨1, ![1024]⟩
abbrev S1x1024 : Shape := ⟨2, ![1, 1024]⟩
abbrev S1 : Shape := ⟨1, ![1]⟩
abbrev S_ : Shape := ⟨0, ![]⟩
abbrev S1x1 : Shape := ⟨2, ![1, 1]⟩
abbrev S16x1x1024 : Shape := ⟨3, ![16, 1, 1024]⟩
abbrev S1x1x1024 : Shape := ⟨3, ![1, 1, 1024]⟩
abbrev S1024x1024 : Shape := ⟨2, ![1024, 1024]⟩
abbrev S1024x1 : Shape := ⟨2, ![1024, 1]⟩
abbrev S16384x1 : Shape := ⟨2, ![16384, 1]⟩

abbrev nBuf : Space → Nat
  | .hbm => 24
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S1024, .f32⟩
  | .hbm, ⟨3, _⟩ => ⟨S1x1024, .f32⟩
  | .hbm, ⟨4, _⟩ => ⟨S1, .f32⟩
  | .hbm, ⟨5, _⟩ => ⟨S1024x512, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S1x1024, .f32⟩
  | .hbm, ⟨20, _⟩ => ⟨S1x1, .f32⟩
  | .hbm, ⟨21, _⟩ => ⟨S1024x512, .bf16⟩
  | .hbm, ⟨22, _⟩ => ⟨S16x1x1024, .f32⟩
  | .hbm, ⟨23, _⟩ => ⟨S16384x1, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1, .f32⟩
  | .local _ .vmem, ⟨7, _⟩ => ⟨S1x1x1024, .f32⟩
  | .local _ .vmem, ⟨8, _⟩ => ⟨S1x1x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S1024x512_S1024_d1 : S1024x512.ReducesTo [1] S1024
  h_S_ : 0 < S_.numel
  shapeCasts_S1024_S1x1024 : S1024.ShapeCasts S1x1024
  bcast_S_S1024 : S_.BroadcastsInDim S1024 (![] : Fin 0 → Fin S1024.rank)
  shapeCasts_S1_S1x1 : S1.ShapeCasts S1x1
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S1024x1024_S1024 : S1024x1024.Reduces [1] S1024
  transposes_S1024x1_p1_0_S1x1024 : S1024x1.Transposes [1, 0] S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S16x1x1024_S16384x1 : S16x1x1024.ShapeCasts S16384x1
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .bf16 = 32 ∨ (Rect.block (s := S1024x512) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S16x1x1024.size a
  hwx0_6 : ∀ i : grid0.Coords, EltTy.bits .f32 = 32 ∨ (Rect.block (s := S16x1x1024) S1x1x1024.size (cc0_transform_6 i) (hinb0_6 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S1024 : Shape := ⟨1, ![1024]⟩
abbrev S1x1024 : Shape := ⟨2, ![1, 1024]⟩
abbrev S1 : Shape := ⟨1, ![1]⟩
abbrev S_ : Shape := ⟨0, ![]⟩
abbrev S16384 : Shape := ⟨1, ![16384]⟩
abbrev S16384x1 : Shape := ⟨2, ![16384, 1]⟩
abbrev S16384x1024 : Shape := ⟨2, ![16384, 1024]⟩
abbrev S1024x1 : Shape := ⟨2, ![1024, 1]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S1024, .f32⟩
  | .hbm, ⟨3, _⟩ => ⟨S1x1024, .f32⟩
  | .hbm, ⟨4, _⟩ => ⟨S1, .f32⟩
  | .hbm, ⟨5, _⟩ => ⟨S16384x512, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S1024x512, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1024x1, .f32⟩
  | .hbm, ⟨37, _⟩ => ⟨S16384x1, .f32⟩
  | .hbm, ⟨38, _⟩ => ⟨S1x1, .f32⟩
  | .hbm, ⟨39, _⟩ => ⟨S16384x1, .f32⟩
  | .hbm, ⟨40, _⟩ => ⟨S16384x1, .f32⟩
  | .hbm, ⟨41, _⟩ => ⟨S16384x1, .i1⟩
  | .hbm, ⟨42, _⟩ => ⟨S_, .f32⟩
  | .hbm, ⟨43, _⟩ => ⟨S16384x1, .f32⟩
  | .hbm, ⟨44, _⟩ => ⟨S16384x1, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1024x512_S1024_d1 : S1024x512.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S_S1024 : S_.BroadcastsInDim S1024 (![] : Fin 0 → Fin S1024.rank)
  transposes_S1x1024_S1024x1_1_0 : S1x1024.Transposes [1, 0] S1024x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x512_S1024x512_S16384x1024_1_1_0_0_n_n_wf : DotDims.WF S16384x512 S1024x512 S16384x1024 [1] [1] [0] [0] [] []
  dot_S16384x1024_S1024x1_S16384x1_1_0_0_1_n_n_wf : DotDims.WF S16384x1024 S1024x1 S16384x1 [1] [0] [0] [1] [] []

variable [Facts₀]

def dot_S16384x512_S1024x512_S16384x1024_1_1_0_0_n_n : DotDims S16384x512 S1024x512 S16384x1024 where
  lhsContracting := [1]
  rhsContracting := [1]
  lhsNonContracting := [0]
  rhsNonContracting := [0]
  lhsBatch := []
  rhsBatch := []
  wf := dot_S16384x512_S1024x512_S16384x1024_1_1_0_0_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.LibRecip.lean ====
/-
  Dividing by a quantity against multiplying by its reciprocal taken beforehand, on the extended reals.

  Off zero the quotient x / w IS the product x · (1 / w), at every numerator and at an infinite w too (both are
  x · w⁻¹); only at w = 0 do the two conventions part.  A square is non-negative on the extended reals, the infinities
  included (∞·∞ = (-∞)·(-∞) = ∞), so a non-negative multiple of a square plus a positive offset is positive, hence off
  zero: a Gaussian width k·σ² + ε, a variance plus ε.
-/
import Idealize.ShloMosaic.PureOps.Ideal

namespace Idealize.ShloMosaic.Ideal

/-- x · (1 / w) = x / w for w ≠ 0. -/
theorem mul_div_one (x w : EReal) (hw : w ≠ 0) : x * Ideal.div 1 w = Ideal.div x w := by
  unfold Ideal.div
  rw [if_neg hw, if_neg hw, one_mul]

/-- 0 ≤ s · s on the extended reals. -/
theorem ereal_mul_self_nonneg (s : EReal) : 0 ≤ s * s := by
  induction s using EReal.rec with
  | bot => rw [EReal.bot_mul_bot]; exact le_top
  | coe r => rw [← EReal.coe_mul]; exact EReal.coe_nonneg.mpr (mul_self_nonneg r)
  | top => rw [EReal.top_mul_top]; exact le_top

/-- 0 < k · s² + ε for 0 ≤ k and 0 < ε, whatever the extended real s. -/
theorem scaled_square_add_pos {k ε : EReal} (hk : 0 ≤ k) (hε : 0 < ε) (s : EReal) : 0 < k * (s * s) + ε :=
  lt_of_lt_of_le hε (le_add_of_nonneg_left (EReal.mul_nonneg hk (ereal_mul_self_nonneg s)))

end Idealize.ShloMosaic.Ideal
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibSelfCompare.lean ====
/-
  A value compared with itself, on the extended reals.

  Nothing differs from itself on a linear order, so the comparison "not equal" of a value with itself answers 0 — the
  ordered and the unordered form alike, there being nothing unordered — and the guard "where x differs from itself put
  z, elsewhere x" (the replacement of a not-a-number by a constant) is x, entry by entry.
-/
import Idealize.ShloMosaic.PureOps.Ideal
import Idealize.ShloMosaic.PureOps.Ideal.Laws
import Idealize.ShloMosaic.Lib.ValueIdx

namespace Idealize.ShloMosaic.ValueIdx

open Idealize.ShloMosaic

/-- "Unordered or not equal" of a value with itself is 0. -/
theorem cmp_une_self (o : EReal) : Ideal.cmp .une o o = 0#1 := by simp [Ideal.cmp]

/-- "Ordered and not equal" of a value with itself is 0. -/
theorem cmp_one_self (o : EReal) : Ideal.cmp .one o o = 0#1 := by simp [Ideal.cmp]

/-- Selecting `z` where `o` differs from itself (unordered form) keeps `o`. -/
theorem select_une_self (o z : EReal) : Scalar.select (Ideal.cmp .une o o) z o = o := by
  rw [cmp_une_self]; exact select_zero _ _

/-- Selecting `z` where `o` differs from itself (ordered form) keeps `o`. -/
theorem select_one_self (o z : EReal) : Scalar.select (Ideal.cmp .one o o) z o = o := by
  rw [cmp_one_self]; exact select_zero _ _

/-- The guard on a whole array, read at an index (unordered form): `where(V ≠ V, Z, V) = V`. -/
theorem select_cmpf_une_self_apply {s : Shape} {φ : FTy} (V Z : FVec Ideal s φ) (i : s.Idx) :
    select (cmpf .une V V) Z V i = V i := select_une_self _ _

/-- The guard on a whole array, read at an index (ordered form). -/
theorem select_cmpf_one_self_apply {s : Shape} {φ : FTy} (V Z : FVec Ideal s φ) (i : s.Idx) :
    select (cmpf .one V V) Z V i = V i := select_one_self _ _

end Idealize.ShloMosaic.ValueIdx
-- ==== Proof.Spec.lean ====
/-
  The network both programs compute, as ONE function of the five argument arrays, over the extended reals.

  A radial-basis layer with 1024 centres in dimension 512, followed by a linear read-out: for input row `b`
    out b = Σ_h exp( -(max(‖x_b‖² + ‖c_h‖² - 2·⟨x_b, c_h⟩, 0)) / (2·σ_h² + ε) ) · W_h + β,
  the squared distance written through the three sums ‖x_b‖², ‖c_h‖², ⟨x_b, c_h⟩ (no subtraction of vectors), and
  clamped at zero.  One program divides by the width `2σ² + ε`; the other multiplies by the reciprocal `1 / (2σ² + ε)`
  computed beforehand and negates by subtracting from zero.  The width is never zero on the extended reals (a square is
  non-negative, also at ±∞, and ε is a positive real), and off zero a quotient IS the product with the reciprocal: that
  is the one law joining the two arrangements (`act_of_recip`); it needs no finiteness of any input.
  Both programs end by replacing a value that differs from itself by zero: no extended real does.
-/
import Idealize.ShloMosaic.PureOps.Ideal
import Idealize.ShloMosaic.PureOps.Ideal.Laws
import Idealize.ShloMosaic.Lib.ValueIdx
import proofs.«168390_j23167053595193_2_alg».proof.Proof.LibRecip
import proofs.«168390_j23167053595193_2_alg».proof.Proof.LibRowSum
import proofs.«168390_j23167053595193_2_alg».proof.Proof.LibSelfCompare

noncomputable section

namespace Cert.Rbf

open Idealize.ShloMosaic Idealize.ShloMosaic.ValueIdx

/-! ## The three literals -/

/-- The word of `2.0` denotes the real 2. -/
theorem two_val : Ideal.ofBits .f32 0x40000000#32 = ((2 : ℝ) : EReal) := by
  simp [Ideal.ofBits, Ideal.ieee, -EReal.coe_mul]; norm_num

/-- The word of `1.0` denotes 1. -/
theorem one_val : Ideal.ofBits .f32 0x3F800000#32 = 1 := by
  simp [Ideal.ofBits, Ideal.ieee, -EReal.coe_mul]; norm_num

/-- The word of the width's offset ε (the float nearest 10⁻⁶) denotes a positive real. -/
theorem eps_pos : (0 : EReal) < Ideal.ofBits .f32 0x358637BD#32 := by
  simp [Ideal.ofBits, Ideal.ieee, -EReal.coe_mul]

/-! ## The function -/

section
variable (x : (⟨2, ![16384, 512]⟩ : Shape).Idx → EReal) (c : (⟨2, ![1024, 512]⟩ : Shape).Idx → EReal)
  (σ : (⟨1, ![1024]⟩ : Shape).Idx → EReal) (W : (⟨2, ![1, 1024]⟩ : Shape).Idx → EReal)
  (β : (⟨1, ![1]⟩ : Shape).Idx → EReal)

/-- ‖x_b‖²: the sum of the squares of input row `b`. -/
def rowSq (b : Fin 16384) : EReal := ∑ d : Fin 512, x (ix2 b d) * x (ix2 b d)
/-- ‖c_h‖²: the sum of the squares of centre `h`. -/
def ctrSq (h : Fin 1024) : EReal := ∑ d : Fin 512, c (ix2 h d) * c (ix2 h d)
/-- ⟨x_b, c_h⟩. -/
def cross (b : Fin 16384) (h : Fin 1024) : EReal := ∑ d : Fin 512, x (ix2 b d) * c (ix2 h d)
/-- The squared distance from row `b` to centre `h` by the three sums, clamped at zero. -/
def dist (b : Fin 16384) (h : Fin 1024) : EReal :=
  max (rowSq x b + ctrSq c h - Ideal.ofBits .f32 0x40000000#32 * cross x c b h) 0
/-- Centre `h`'s width 2·σ_h² + ε. -/
def width (h : Fin 1024) : EReal :=
  Ideal.ofBits .f32 0x40000000#32 * (σ (ix1 h) * σ (ix1 h)) + Ideal.ofBits .f32 0x358637BD#32
/-- Hidden unit `h` on row `b`: exp(-dist / width). -/
def act (b : Fin 16384) (h : Fin 1024) : EReal := Ideal.exp (Ideal.div (-(dist x c b h)) (width σ h))
/-- The read-out of row `b`. -/
def row (b : Fin 16384) : EReal := (∑ h : Fin 1024, act x c σ b h * W (ix2 (0 : Fin 1) h)) + β (ix1 (0 : Fin 1))
/-- The result array [16384, 1]. -/
def out : (⟨2, ![16384, 1]⟩ : Shape).Idx → EReal := fun i => row x c σ W β (i 0)

/-! ## The width is not zero, and the law -/

theorem width_pos (h : Fin 1024) : 0 < width σ h := by
  unfold width
  have h2 : (0 : EReal) ≤ Ideal.ofBits .f32 0x40000000#32 := by
    rw [two_val]; exact EReal.coe_nonneg.mpr (by norm_num)
  exact Ideal.scaled_square_add_pos h2 eps_pos _

theorem width_ne_zero (h : Fin 1024) : width σ h ≠ 0 := (width_pos σ h).ne'

/-- The arrangement with the reciprocal taken beforehand and the sign changed by subtracting from zero:
    (0 - d) · (1 / w) = (-d) / w, the width being off zero. -/
theorem act_of_recip (b : Fin 16384) (h : Fin 1024) :
    Ideal.exp ((0 - dist x c b h) * Ideal.div (Ideal.ofBits .f32 0x3F800000#32) (width σ h)) = act x c σ b h := by
  unfold act
  rw [one_val, zero_sub, Ideal.mul_div_one _ _ (width_ne_zero σ h)]

/-- One row's read-out in the arrangement with the reciprocal, from what that row's computation is handed: the row's
    entries `ξ`, the centres `γ`, their squared norms `q`, the reciprocal widths `ρ`, the read-out weights `w` and the
    offset `β0`. The sign is changed by subtracting from zero, the quotient is a product. -/
def rowRecip (ξ : Fin 512 → EReal) (γ : Fin 1024 → Fin 512 → EReal) (q ρ w : Fin 1024 → EReal) (β0 : EReal) : EReal :=
  (∑ h : Fin 1024, Ideal.exp ((0 - max ((∑ d : Fin 512, ξ d * ξ d) + q h
      - Ideal.ofBits .f32 0x40000000#32 * ∑ d : Fin 512, ξ d * γ h d) 0) * ρ h) * w h) + β0

/-- Handed the true squared norms and reciprocal widths, that arrangement is the network's row. -/
theorem rowRecip_eq (b : Fin 16384) :
    rowRecip (fun d => x (ix2 b d)) (fun h d => c (ix2 h d)) (ctrSq c)
      (fun h => Ideal.div (Ideal.ofBits .f32 0x3F800000#32) (width σ h)) (fun h => W (ix2 (0 : Fin 1) h)) (β (ix1 (0 : Fin 1)))
    = row x c σ W β b := by
  unfold rowRecip row
  refine congrArg (· + β (ix1 (0 : Fin 1))) (Finset.sum_congr rfl fun h _ => ?_)
  exact congrArg (· * W (ix2 (0 : Fin 1) h)) (act_of_recip x c σ b h)

end

end Cert.Rbf

end
-- ==== Proof.RefRead.lean ====
/-
  The reference program's result is the network `Cert.Rbf.out` of its five arguments.

  Read one stage at a time, at an index given by its coordinates (b, h): the two keepdims sums broadcast to
  [16384, 1024] are ‖x_b‖² and ‖c_h‖² (each sum starts from the zero literal, which adds nothing), the first
  `dot_general` is ⟨x_b, c_h⟩, the width broadcast along the rows is 2σ_h² + ε, the exponential of the quotient is the
  hidden unit, the second `dot_general` against the transposed read-out weights is the sum over the hidden units, and the
  final "where it differs from itself put zero" keeps the value.
-/
import proofs.«168390_j23167053595193_2_alg».proof.Proof.Gen.ReferenceIdeal.Read
import proofs.«168390_j23167053595193_2_alg».proof.Proof.Spec

noncomputable section

namespace Cert.Rbf.Ref

open Cert.ReferenceIdeal Cert.ReferenceIdeal.Read Idealize.ShloMosaic Idealize.ShloMosaic.ValueIdx Cert.Rbf

variable (x0 : (⟨S16384x512, .f32⟩ : BufTy).Contents (Elt Ideal)) (x1 : (⟨S1024x512, .f32⟩ : BufTy).Contents (Elt Ideal))
  (x2 : (⟨S1024, .f32⟩ : BufTy).Contents (Elt Ideal)) (x3 : (⟨S1x1024, .f32⟩ : BufTy).Contents (Elt Ideal))
  (x4 : (⟨S1, .f32⟩ : BufTy).Contents (Elt Ideal))

/-- The row sums of squares, broadcast along the centres. -/
theorem rowSq_stage (b : Fin 16384) (h : Fin 1024) : val_main_v6 (F := Ideal) x0 (ix2 b h) = rowSq x0 b := by
  rw [val_main_v6_apply, val_main_v2_apply, val_main_v1_apply, val_main_cst_apply]
  simp only [Ideal.ofBits_def, Ideal.ofBits_zero_f32, zero_add]
  refine Finset.sum_congr rfl fun d _ => ?_
  show x0 _ * x0 _ = x0 (ix2 b d) * x0 (ix2 b d)
  rw [idx2_ext (idx_main_v1 (idx_main_v2 (idx_main_v6 (ix2 b h))) d) b d rfl rfl]

/-- The centres' sums of squares, broadcast along the rows. -/
theorem ctrSq_stage (b : Fin 16384) (h : Fin 1024) : val_main_v7 (F := Ideal) x1 (ix2 b h) = ctrSq x1 h := by
  rw [val_main_v7_apply, val_main_v5_apply, val_main_v4_apply, val_main_cst_0_apply]
  simp only [Ideal.ofBits_def, Ideal.ofBits_zero_f32, zero_add]
  refine Finset.sum_congr rfl fun d _ => ?_
  show x1 _ * x1 _ = x1 (ix2 h d) * x1 (ix2 h d)
  rw [idx2_ext (idx_main_v4 (idx_main_v5 (idx_main_v7 (ix2 b h))) d) h d rfl rfl]

/-- The product of the rows with the centres. -/
theorem cross_stage (b : Fin 16384) (h : Fin 1024) : val_main_v9 (F := Ideal) x0 x1 (ix2 b h) = cross x0 x1 b h := by
  rw [val_main_v9_apply]
  refine Finset.sum_congr rfl fun d _ => ?_
  rw [idx2_ext (lidx_main_v9 (ix2 b h) d) b d rfl rfl, idx2_ext (ridx_main_v9 (ix2 b h) d) h d rfl rfl]

/-- The clamped squared distance. -/
theorem dist_stage (b : Fin 16384) (h : Fin 1024) : val_main_v14 (F := Ideal) x0 x1 (ix2 b h) = dist x0 x1 b h := by
  rw [val_main_v14_apply, val_main_v12_apply, val_main_v8_apply, val_main_v11_apply, val_main_v10_apply,
    val_main_cst_1_apply, val_main_v13_apply, val_main_cst_2_apply, rowSq_stage, ctrSq_stage, cross_stage]
  simp only [Ideal.ofBits_def, Ideal.ofBits_zero_f32, Ideal.addf_def, Ideal.subf_def, Ideal.mulf_def, Ideal.maximumf_def]
  rfl

/-- The widths, broadcast along the rows. -/
theorem width_stage (b : Fin 16384) (h : Fin 1024) : val_main_v22 (F := Ideal) x2 (ix2 b h) = width x2 h := by
  rw [val_main_v22_apply, val_main_v21_apply, val_main_v20_apply, val_main_v18_apply, val_main_v17_apply,
    val_main_cst_3_apply, val_main_v16_apply, val_main_v19_apply, val_main_cst_4_apply,
    idx1_ext (idx_main_v21 (idx_main_v22 (ix2 b h))) h rfl]
  rfl

/-- The hidden units. -/
theorem act_stage (b : Fin 16384) (h : Fin 1024) : val_main_v24 (F := Ideal) x0 x1 x2 (ix2 b h) = act x0 x1 x2 b h := by
  rw [val_main_v24_apply, val_main_v23_apply, val_main_v15_apply, dist_stage, width_stage]
  rfl

/-- The read-out before the final selection. -/
theorem row_stage (b : Fin 16384) (u : Fin 1) :
    val_main_v29 (F := Ideal) x0 x1 x2 x3 x4 (ix2 b u) = row x0 x1 x2 x3 x4 b := by
  rw [val_main_v29_apply, val_main_v26_apply, val_main_v28_apply, val_main_v27_apply,
    idx1_ext (idx_main_v27 (idx_main_v28 (ix2 b u))) (0 : Fin 1) rfl]
  show (∑ k : Fin 1024, _) + x4 (ix1 (0 : Fin 1)) = _
  refine congrArg (· + x4 (ix1 (0 : Fin 1))) (Finset.sum_congr rfl fun k _ => ?_)
  rw [idx2_ext (lidx_main_v26 (ix2 b u) k) b k rfl rfl, act_stage, val_main_v25_apply,
    idx2_ext (idx_main_v25 (ridx_main_v26 (ix2 b u) k)) (0 : Fin 1) k (Fin.val_eq_zero u) rfl]

/-- THE REFERENCE: its result stage is the network of its arguments. -/
theorem result_eq : val_main_v32 (F := Ideal) x0 x1 x2 x3 x4 = out x0 x1 x2 x3 x4 := by
  funext i
  obtain ⟨b, u, rfl⟩ : ∃ (b : Fin 16384) (u : Fin 1), i = ix2 b u := ⟨i 0, i 1, eq_ix2 i⟩
  rw [val_main_v32_apply, val_main_v30_apply, row_stage]
  simp only [Ideal.cmpf_def]
  rw [select_une_self]
  rfl

end Cert.Rbf.Ref

end
-- ==== Proof.LibDotNT.lean ====
/-
  A matrix product that contracts the LAST axis of both operands, [M,K] × [N,K] → [M,N] (the right operand used
  transposed: q·kᵀ, x·Wᵀ), accumulated into the zero matrix and read at (i, j) over the extended reals:
  the sum over k of l(i,k) · r(j,k).
-/
import Idealize.ShloMosaic.PureOps.Ideal.Laws
import Idealize.ShloMosaic.Lib.ValueIdx

namespace Idealize.ShloMosaic.ValueIdx

open Idealize.ShloMosaic

/-- A `tpu.matmul` with dimension numbers ⟨[1],[1],[0],[0],[],[]⟩ into the zero accumulator, at `(i, j)`, is
    `∑ k, l (i, k) * r (j, k)`. The record is any with those dimension numbers (`hr`, `hs`: its contraction shape has one
    axis of extent `K`; for a printed record both are `rfl`). -/
theorem matmul_nt_zero_apply {M N K : ℕ} {φ₁ φ₂ : FTy}
    (D : DotDims (⟨2, ![M, K]⟩ : Shape) ⟨2, ![N, K]⟩ ⟨2, ![M, N]⟩)
    (hlc : D.lhsContracting = [1]) (hrc : D.rhsContracting = [1])
    (hln : D.lhsNonContracting = [0]) (hrn : D.rhsNonContracting = [0])
    (hlb : D.lhsBatch = []) (hrb : D.rhsBatch = [])
    (hr : D.contr.rank = 1) (hs : D.contr.size ⟨0, by omega⟩ = K)
    (prec : Option ContractPrecision)
    (l : FVec Ideal (⟨2, ![M, K]⟩ : Shape) φ₁) (r : FVec Ideal (⟨2, ![N, K]⟩ : Shape) φ₂) (i : Fin M) (j : Fin N) :
    FloatOps.matmul D prec l r (constant (⟨2, ![M, N]⟩ : Shape) .f32 0x00000000#32) (ix2 i j)
      = ∑ k : Fin K, l (ix2 i k) * r (ix2 j k) := by
  rw [Ideal.matmul_constant_zero_apply, ← Equiv.sum_comp (contrEquiv1 D K hr hs).symm]
  refine Finset.sum_congr rfl fun k _ => ?_
  have hk := contrEquiv1_symm_val D K hr hs k
  have key : ∀ (p : ℕ) (hp : p < (⟨2, ![M, N]⟩ : Shape).rank) (q : Fin 2), p = q.val → ((ix2 i j) ⟨p, hp⟩).val = ((ix2 i j) q).val :=
    fun p hp q h => by subst h; rfl
  have el : D.lhsIdx (ix2 i j) ((contrEquiv1 D K hr hs).symm k) = ix2 i k := funext fun a => Fin.ext (by
    match a with
    | ⟨0, _⟩ =>
      unfold DotDims.lhsIdx
      rw [dif_neg (by rw [hlb]; exact List.not_mem_nil), dif_pos (by rw [hln]; exact List.mem_singleton.mpr rfl)]
      simp only [Fin.val_cast]
      exact key _ _ 0 (by simp [hlb, hln])
    | ⟨1, _⟩ => exact (D.lhsIdx_val_of_single hlc _ _).trans hk)
  have er : D.rhsIdx (ix2 i j) ((contrEquiv1 D K hr hs).symm k) = ix2 j k := funext fun a => Fin.ext (by
    match a with
    | ⟨0, _⟩ =>
      unfold DotDims.rhsIdx
      rw [dif_neg (by rw [hrb]; exact List.not_mem_nil), dif_pos (by rw [hrn]; exact List.mem_singleton.mpr rfl)]
      simp only [Fin.val_cast]
      exact key _ _ 1 (by simp [hlb, hln, hrn])
    | ⟨1, _⟩ => exact (D.rhsIdx_val_of_single hrc _ _).trans hk)
  rw [el, er]

end Idealize.ShloMosaic.ValueIdx
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Body.lean ====
/-
  What the kernel's body stores for one block of 1024 rows, read at a row.

  The stored vector [1, 1, 1024] is the transposed, re-laid column of read-outs: entry (·, ·, r) is row r's.  Row r's
  read-out is built from the block's row r (its sum of squares, kept as a column and broadcast along the centres), the
  centres (their product with the rows, a matrix product contracting the last axis of both), the centres' squared norms
  and the reciprocal widths (each one row [1, 1024], broadcast along the block's rows), the read-out weights (likewise)
  and the offset (one entry, broadcast): exactly `Cert.Rbf.rowRecip` of those.  The sums start from the zero word; the
  final "where it differs from itself put zero" keeps the value.
-/
import proofs.«168390_j23167053595193_2_alg».proof.Proof.Gen.KernelIdeal.Skeleton
import proofs.«168390_j23167053595193_2_alg».proof.Proof.Spec
import proofs.«168390_j23167053595193_2_alg».proof.Proof.LibDotNT
import proofs.«168390_j23167053595193_2_alg».proof.Proof.LibColumn
import proofs.«168390_j23167053595193_2_alg».proof.Proof.LibRowSum
import proofs.«168390_j23167053595193_2_alg».proof.Proof.LibSelfCompare
import Idealize.ShloMosaic.Lib.ValueLayout
import Idealize.ShloMosaic.Lib.Pipeline.Value

noncomputable section

namespace Cert.Rbf.Body

open Cert.KernelIdeal Cert.KernelIdeal.Gen Idealize.ShloMosaic Idealize.ShloMosaic.ValueIdx Cert.Rbf

/-- THE BODY'S STORED VECTOR at row `r` of the block. -/
theorem pay_apply (x0 : Vec Ideal S1024x512 .f32) (x1 : Vec Ideal S1024x512 .bf16) (x2 x3 x4 : Vec Ideal S1x1024 .f32)
    (x5 : Vec Ideal S1x1 .f32) (u v : Fin 1) (r : Fin 1024) :
    k0_pay1 (F := Ideal) x0 x1 x2 x3 x4 x5 (ix3 u v r)
      = rowRecip (fun d => x0 (ix2 r d)) (fun h d => x1 (ix2 h d)) (fun h => x2 (ix2 (0 : Fin 1) h))
          (fun h => x3 (ix2 (0 : Fin 1) h)) (fun h => x4 (ix2 (0 : Fin 1) h)) (x5 (ix2 (0 : Fin 1) (0 : Fin 1))) := by
  unfold k0_pay1 rowRecip
  refine (shapeCast_ab_1ab_apply _ _ u v r).trans ?_
  refine (transpose_ix2_apply _ _ v r).trans ?_
  refine (select_cmpf_one_self_apply _ _ _).trans ?_
  refine (addf_apply _ _ _).trans (congrArg₂ (· + ·) ?_ ?_)
  · -- the sum over the hidden units
    refine (shapeCast_a_a1_apply _ _ r v).trans ?_
    refine (multiReduction_add_rows_apply _ _ _ _ r).trans (Finset.sum_congr rfl fun h _ => ?_)
    refine (mulf_apply _ _ _).trans (congrArg₂ (· * ·) ?_ (broadcastTo_1b_ab_apply _ _ r h))
    refine congrArg Ideal.exp ?_
    refine (mulf_apply _ _ _).trans (congrArg₂ (· * ·) ?_
      ((broadcastTo_1b_ab_apply _ _ r h).trans (congrFun (shapeCast_self x3 _) _)))
    refine (subf_apply _ _ _).trans (congrArg₂ (· - ·) Ideal.ofBits_zero_f32 ?_)
    refine (maximumf_apply _ _ _).trans (congrArg₂ max ?_ Ideal.ofBits_zero_f32)
    refine (subf_apply _ _ _).trans (congrArg₂ (· - ·) ?_ ?_)
    · refine (addf_apply _ _ _).trans (congrArg₂ (· + ·) ?_
        ((broadcastTo_1b_ab_apply _ _ r h).trans (congrFun (shapeCast_self x2 _) _)))
      exact (broadcastTo_a1_ab_apply _ _ r h).trans ((shapeCast_a_a1_apply _ _ r (0 : Fin 1)).trans (multiReduction_add_rows_apply _ _ _ _ r))
    · refine (mulf_apply _ _ _).trans (congrArg₂ (· * ·) rfl ?_)
      refine (matmul_nt_zero_apply _ rfl rfl rfl rfl rfl rfl rfl rfl none _ _ r h).trans
        (Finset.sum_congr rfl fun d _ => congrArg₂ (· * ·) rfl (congrFun (shapeCast_self x1 _) _))
  · -- the offset
    exact congrArg x5 (idx2_ext _ (0 : Fin 1) (0 : Fin 1) rfl rfl)

end Cert.Rbf.Body

end
-- ==== Proof.Entry.lean ====
/-
  What the region finds in the four arrays the host computes before it, as functions of the arguments.

  The centres' squared norms (a row sum from the zero word, viewed [1, 1024]) are `ctrSq`; the reciprocal widths
  (the literal one divided by 2σ² + ε, viewed [1, 1024]) are `1 / width`; the offset viewed [1, 1] is the offset; the
  centres converted to the narrower format are the centres (a change of format is the identity on the extended reals).
-/
import proofs.«168390_j23167053595193_2_alg».proof.Proof.Gen.KernelIdeal.Frame
import proofs.«168390_j23167053595193_2_alg».proof.Proof.Spec
import Idealize.ShloMosaic.Lib.StableHlo.Run
import Idealize.ShloMosaic.Lib.ValueLayout
import Idealize.ShloMosaic.PureOps.Ideal.Laws

noncomputable section

namespace Cert.Rbf.Entry

open Cert.KernelIdeal Cert.KernelIdeal.Gen Idealize.ShloMosaic Idealize.ShloMosaic.TcCoe Idealize.SL.Sem
open Idealize.ShloMosaic.StableHlo Idealize.ShloMosaic.ValueIdx Cert.Rbf

variable (m : (ℓ : Loc nD τ sig) → Buf (Elt Ideal) ℓ)

/-- The host's sum along the second axis of a [1024, 512] array, from the zero word, at row `h`. -/
theorem hostRowsum_apply (src : FVec Ideal S1024x512 .f32) (h : Fin 1024) :
    Host.reduceAdd (F := Ideal) src (constant (F := Ideal) S_ .f32 0x00000000#32) reducesTo_S1024x512_S1024_d1 h_S_ (ix1 h)
      = ∑ d : Fin 512, src (ix2 h d) := by
  simp only [Host.reduceAdd, Ideal.hostReduceAdd_def]
  rw [Ideal.hostReduceAdd_single reducesTo_S1024x512_S1024_d1 (by decide)]
  show Ideal.ofBits .f32 0x00000000#32 + _ = _
  rw [Ideal.ofBits_zero_f32, zero_add]
  exact Finset.sum_congr rfl fun d _ => congrArg src (idx2_ext _ h d rfl rfl)

/-- Window 2's array: the centres' squared norms. -/
theorem csq_apply (c : Dev nD) (h : Fin 1024) :
    (V m c main_v2 : S1x1024.Idx → EReal) (ix2 (0 : Fin 1) h) = ctrSq (m ((c : Thread nD τ).loc main_arg1)) h := by
  have e : (V m c main_v2 : S1x1024.Idx → EReal) = shapeCast S1x1024 (Host.reduceAdd (F := Ideal)
      (mulf (m ((c : Thread nD τ).loc main_arg1)) (m ((c : Thread nD τ).loc main_arg1)))
      (constant (F := Ideal) S_ .f32 0x00000000#32) reducesTo_S1024x512_S1024_d1 h_S_) shapeCasts_S1024_S1x1024 := by
    show StableHlo.after hostOps0 (fun b => m (c, b)) (Proc.devRef .tc main_v2) = _
    after_results
    rfl
  exact (congrFun e _).trans ((shapeCast_a_1a_apply _ _ (0 : Fin 1) h).trans (hostRowsum_apply _ h))

/-- Window 3's array: the reciprocal widths. -/
theorem recip_apply (c : Dev nD) (h : Fin 1024) :
    (V m c main_v10 : S1x1024.Idx → EReal) (ix2 (0 : Fin 1) h)
      = Ideal.div (Ideal.ofBits .f32 0x3F800000#32) (width (m ((c : Thread nD τ).loc main_arg2)) h) := by
  have e : (V m c main_v10 : S1x1024.Idx → EReal) = shapeCast S1x1024 (Host.divf (F := Ideal)
      (broadcastInDim S1024 ![] bcast_S_S1024 (constant (F := Ideal) S_ .f32 0x3F800000#32))
      (addf (mulf (broadcastInDim S1024 ![] bcast_S_S1024 (constant (F := Ideal) S_ .f32 0x40000000#32))
          (mulf (m ((c : Thread nD τ).loc main_arg2)) (m ((c : Thread nD τ).loc main_arg2))))
        (broadcastInDim S1024 ![] bcast_S_S1024 (constant (F := Ideal) S_ .f32 0x358637BD#32)))) shapeCasts_S1024_S1x1024 := by
    show StableHlo.after hostOps0 (fun b => m (c, b)) (Proc.devRef .tc main_v10) = _
    after_results
    rfl
  exact (congrFun e _).trans ((shapeCast_a_1a_apply _ _ (0 : Fin 1) h).trans rfl)

/-- Window 5's array: the offset. -/
theorem offset_apply (c : Dev nD) :
    (V m c main_v11 : S1x1.Idx → EReal) (ix2 (0 : Fin 1) (0 : Fin 1)) = m ((c : Thread nD τ).loc main_arg4) (ix1 (0 : Fin 1)) := by
  have e : (V m c main_v11 : S1x1.Idx → EReal) = shapeCast S1x1 (m ((c : Thread nD τ).loc main_arg4)) shapeCasts_S1_S1x1 := by
    show StableHlo.after hostOps0 (fun b => m (c, b)) (Proc.devRef .tc main_v11) = _
    after_results
    rfl
  exact (congrFun e _).trans (shapeCast_a_1a_apply _ _ (0 : Fin 1) (0 : Fin 1))

/-- Window 1's array: the centres. -/
theorem centres_eq (c : Dev nD) :
    (V m c main_v12 : S1024x512.Idx → EReal) = m ((c : Thread nD τ).loc main_arg1) := by
  show StableHlo.after hostOps0 (fun b => m (c, b)) (Proc.devRef .tc main_v12) = _
  after_results
  rfl

end Cert.Rbf.Entry

end
-- ==== Proof.Blocks.lean ====
/-
  From blocks to the array: what the region leaves in its output array [16, 1, 1024], as ONE function of the arguments.

  Grid point t is handed rows 1024·t … 1024·t + 1023 of the input and, whole, each of the other five arrays (their block
  index is (0, 0) at every point); it writes back block (t, 0, 0) of the output, whose entry (·, ·, r) is the network's
  read-out of input row 1024·t + r.  The sixteen blocks tile the output, so after the run its entry (t, 0, r) is the
  read-out of row 1024·t + r.
-/
import proofs.«168390_j23167053595193_2_alg».proof.Proof.Gen.KernelIdeal.Frame
import proofs.«168390_j23167053595193_2_alg».proof.Proof.Body
import proofs.«168390_j23167053595193_2_alg».proof.Proof.Entry
import Idealize.ShloMosaic.Lib.Pipeline.Value

noncomputable section

namespace Cert.Rbf.Blocks

open Cert.KernelIdeal Cert.KernelIdeal.Gen Idealize.ShloMosaic Idealize.ShloMosaic.TcCoe Idealize.SL.Sem
open Idealize.ShloMosaic.ValueIdx Cert.Rbf
open Idealize.ShloMosaic.Pipeline (Dat)

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- Where each window's block sits at point `t`: the input's and the output's move with the point along their first axis,
    the other five stay at the origin. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- Row `r` of block `t` is input row 1024·t + r. -/
def rowOf (t : Fin cfg0.N) (r : Fin 1024) : Fin 16384 :=
  ⟨t.val * 1024 + r.val, by have hN : cfg0.N = 16 := N_0; have := t.isLt; have := r.isLt; omega⟩

/-! ## Each window's block, read off its array -/

theorem input_block (c : Dev nD) (t : Fin cfg0.N) (r : Fin 1024) (d : Fin 512) :
    (iblk m c 0 t : Vec Ideal S1024x512 .f32) (ix2 r d)
      = (m ((c : Thread nD τ).loc main_arg0) : S16384x512.Idx → EReal) (ix2 (rowOf t r) d) := by
  obtain ⟨e0, e1, -⟩ := block_indices t
  unfold iblk
  rw [View.read_apply]
  show V m c main_arg0 _ = _
  rw [V_main_arg0]
  refine congrArg (m ((c : Thread nD τ).loc main_arg0) : S16384x512.Idx → EReal) (idx2_ext _ (rowOf t r) d ?_ ?_)
  · show win0_0.index t (0 : Fin 2) * 1024 + 1 * r.val = t.val * 1024 + r.val; rw [e0]; omega
  · show win0_0.index t (1 : Fin 2) * 512 + 1 * d.val = d.val; rw [e1]; omega

theorem centres_block (c : Dev nD) (t : Fin cfg0.N) (h : Fin 1024) (d : Fin 512) :
    (iblk m c 1 t : Vec Ideal S1024x512 .bf16) (ix2 h d) = (m ((c : Thread nD τ).loc main_arg1) : S1024x512.Idx → EReal) (ix2 h d) := by
  obtain ⟨-, -, e0, e1, -⟩ := block_indices t
  unfold iblk
  rw [View.read_apply]
  show V m c main_v12 _ = _
  refine Eq.trans (congrArg (V m c main_v12 : S1024x512.Idx → EReal) (idx2_ext _ h d ?_ ?_)) (congrFun (Entry.centres_eq m c) _)
  · show win0_1.index t (0 : Fin 2) * 1024 + 1 * h.val = h.val; rw [e0]; omega
  · show win0_1.index t (1 : Fin 2) * 512 + 1 * d.val = d.val; rw [e1]; omega

theorem csq_block (c : Dev nD) (t : Fin cfg0.N) (h : Fin 1024) :
    (iblk m c 2 t : Vec Ideal S1x1024 .f32) (ix2 (0 : Fin 1) h) = ctrSq (m ((c : Thread nD τ).loc main_arg1)) h := by
  obtain ⟨-, -, -, -, e0, e1, -⟩ := block_indices t
  unfold iblk
  rw [View.read_apply]
  show V m c main_v2 _ = _
  refine Eq.trans (congrArg (V m c main_v2 : S1x1024.Idx → EReal) (idx2_ext _ (0 : Fin 1) h ?_ ?_)) (Entry.csq_apply m c h)
  · show win0_2.index t (0 : Fin 2) * 1 + 1 * 0 = 0; rw [e0]
  · show win0_2.index t (1 : Fin 2) * 1024 + 1 * h.val = h.val; rw [e1]; omega

theorem recip_block (c : Dev nD) (t : Fin cfg0.N) (h : Fin 1024) :
    (iblk m c 3 t : Vec Ideal S1x1024 .f32) (ix2 (0 : Fin 1) h)
      = Ideal.div (Ideal.ofBits .f32 0x3F800000#32) (width (m ((c : Thread nD τ).loc main_arg2)) h) := by
  obtain ⟨-, -, -, -, -, -, e0, e1, -⟩ := block_indices t
  unfold iblk
  rw [View.read_apply]
  show V m c main_v10 _ = _
  refine Eq.trans (congrArg (V m c main_v10 : S1x1024.Idx → EReal) (idx2_ext _ (0 : Fin 1) h ?_ ?_)) (Entry.recip_apply m c h)
  · show win0_3.index t (0 : Fin 2) * 1 + 1 * 0 = 0; rw [e0]
  · show win0_3.index t (1 : Fin 2) * 1024 + 1 * h.val = h.val; rw [e1]; omega

theorem weights_block (c : Dev nD) (t : Fin cfg0.N) (h : Fin 1024) :
    (iblk m c 4 t : Vec Ideal S1x1024 .f32) (ix2 (0 : Fin 1) h) = (m ((c : Thread nD τ).loc main_arg3) : S1x1024.Idx → EReal) (ix2 (0 : Fin 1) h) := by
  obtain ⟨-, -, -, -, -, -, -, -, e0, e1, -⟩ := block_indices t
  unfold iblk
  rw [View.read_apply]
  show V m c main_arg3 _ = _
  rw [V_main_arg3]
  refine congrArg (m ((c : Thread nD τ).loc main_arg3) : S1x1024.Idx → EReal) (idx2_ext _ (0 : Fin 1) h ?_ ?_)
  · show win0_4.index t (0 : Fin 2) * 1 + 1 * 0 = 0; rw [e0]
  · show win0_4.index t (1 : Fin 2) * 1024 + 1 * h.val = h.val; rw [e1]; omega

theorem offset_block (c : Dev nD) (t : Fin cfg0.N) :
    (iblk m c 5 t : Vec Ideal S1x1 .f32) (ix2 (0 : Fin 1) (0 : Fin 1)) = m ((c : Thread nD τ).loc main_arg4) (ix1 (0 : Fin 1)) := by
  obtain ⟨-, -, -, -, -, -, -, -, -, -, e0, e1, -⟩ := block_indices t
  unfold iblk
  rw [View.read_apply]
  show V m c main_v11 _ = _
  refine Eq.trans (congrArg (V m c main_v11 : S1x1.Idx → EReal) (idx2_ext _ (0 : Fin 1) (0 : Fin 1) ?_ ?_)) (Entry.offset_apply m c)
  · show win0_5.index t (0 : Fin 2) * 1 + 1 * 0 = 0; rw [e0]
  · show win0_5.index t (1 : Fin 2) * 1 + 1 * 0 = 0; rw [e1]

/-! ## What a point stores, and the array after the run -/

/-- The output array as one function of the arguments: entry (t, ·, r) is the read-out of input row 1024·t + r. -/
def outArr (c : Dev nD) : S16x1x1024.Idx → EReal := fun i =>
  row (m ((c : Thread nD τ).loc main_arg0)) (m ((c : Thread nD τ).loc main_arg1)) (m ((c : Thread nD τ).loc main_arg2)) (m ((c : Thread nD τ).loc main_arg3)) (m ((c : Thread nD τ).loc main_arg4))
    ⟨(i 0).val * 1024 + (i 2).val, by
      have h0 : (i 0).val < 16 := (i 0).isLt; have h2 : (i 2).val < 1024 := (i 2).isLt; omega⟩

/-- Point `t`'s stored vector at row `r` is the network's read-out of input row 1024·t + r. -/
theorem stored_row (c : Dev nD) (t : Fin cfg0.N) (u v : Fin 1) (r : Fin 1024) :
    k0_pay1 (F := Ideal) (iblk m c 0 t) (iblk m c 1 t) (iblk m c 2 t) (iblk m c 3 t) (iblk m c 4 t) (iblk m c 5 t) (ix3 u v r)
      = row (m ((c : Thread nD τ).loc main_arg0)) (m ((c : Thread nD τ).loc main_arg1)) (m ((c : Thread nD τ).loc main_arg2)) (m ((c : Thread nD τ).loc main_arg3)) (m ((c : Thread nD τ).loc main_arg4)) (rowOf t r) := by
  refine (Body.pay_apply (iblk m c 0 t) (iblk m c 1 t) (iblk m c 2 t) (iblk m c 3 t) (iblk m c 4 t) (iblk m c 5 t) u v r).trans ?_
  refine Eq.trans ?_ (rowRecip_eq (m ((c : Thread nD τ).loc main_arg0)) (m ((c : Thread nD τ).loc main_arg1)) (m ((c : Thread nD τ).loc main_arg2)) (m ((c : Thread nD τ).loc main_arg3)) (m ((c : Thread nD τ).loc main_arg4)) (rowOf t r))
  exact congr (congr (congr (congr (congr (congrArg rowRecip (funext fun d => input_block m c t r d))
    (funext fun h => funext fun d => centres_block m c t h d)) (funext fun h => csq_block m c t h))
    (funext fun h => recip_block m c t h)) (funext fun h => weights_block m c t h)) (offset_block m c t)

/-- The same at an index of the block and the index of the array it lands on. -/
theorem stored_at (c : Dev nD) (t : Fin cfg0.N) (j : S1x1x1024.Idx) (i : S16x1x1024.Idx)
    (h0 : (i 0).val = t.val) (h2 : (i 2).val = (j 2).val) :
    k0_pay1 (F := Ideal) (iblk m c 0 t) (iblk m c 1 t) (iblk m c 2 t) (iblk m c 3 t) (iblk m c 4 t) (iblk m c 5 t) j = outArr m c i := by
  obtain ⟨u, v, r, rfl⟩ : ∃ (u v : Fin 1) (r : Fin 1024), j = ix3 u v r := ⟨j 0, j 1, j 2, eq_ix3 j⟩
  refine (stored_row m c t u v r).trans ?_
  unfold outArr
  exact congrArg (row (m ((c : Thread nD τ).loc main_arg0)) (m ((c : Thread nD τ).loc main_arg1)) (m ((c : Thread nD τ).loc main_arg2)) (m ((c : Thread nD τ).loc main_arg3)) (m ((c : Thread nD τ).loc main_arg4)))
    (Fin.ext (by show t.val * 1024 + r.val = (i 0).val * 1024 + (i 2).val; rw [h0, h2]))

/-- WHAT POINT `t` WRITES BACK is block `t` of `outArr`. -/
theorem flushed_eq (c : Dev nD) (t : Fin cfg0.N) :
    (dats m 0 c).flushed 6 t = ((cfg0.win 6).blk t).view.read (Elt Ideal) (outArr m c) := by
  obtain ⟨-, -, -, -, -, -, -, -, -, -, -, -, e0, -, e2⟩ := block_indices t
  show (cfg0.win 6).cut (grid0.coords t) ((dats m 0 c).after 6 t) = _
  rw [after0_6]
  unfold out0_6
  rw [View.canon_unit_zero zero3]
  simp only [View.ld_unit_zero (S := S1024x512) zero2, View.ld_unit_zero (S := S1x1024) zero2, View.ld_unit_zero (S := S1x1) zero2]
  funext j
  show k0_pay1 (F := Ideal) (iblk m c 0 t) (iblk m c 1 t) (iblk m c 2 t) (iblk m c 3 t) (iblk m c 4 t) (iblk m c 5 t) j = outArr m c (((cfg0.win 6).blk t).view.emb j)
  refine stored_at m c t j _ ?_ ?_
  · show win0_6.index t (0 : Fin 3) * 1 + 1 * (j 0).val = t.val
    have hj : (j 0).val < 1 := (j 0).isLt
    rw [e0]; omega
  · show win0_6.index t (2 : Fin 3) * 1024 + 1 * (j 2).val = (j 2).val
    rw [e2]; omega

/-- An index of the output array is in point `t`'s block iff each coordinate is in the block's range. -/
theorem mem_block (t : Fin cfg0.N) (i : S16x1x1024.Idx) :
    i ∈ ((cfg0.win 6).blk t).view.set ↔ ∀ a : Fin 3, win0_6.index t a * S1x1x1024.size a ≤ (i a).val
      ∧ (i a).val < win0_6.index t a * S1x1x1024.size a + S1x1x1024.size a := by
  show i ∈ ((View.whole main_v13).slice (win0_6.rect t)).set ↔ _
  rw [View.set_slice_whole, Rect.mem_set_unit]
  exact Iff.rfl

/-- Every index of the output array is in the block of the point its first coordinate names. -/
theorem covered (i : S16x1x1024.Idx) :
    ∃ t : Fin cfg0.N, (cfg0.win 6).flush t = true ∧ i ∈ ((cfg0.win 6).blk t).view.set := by
  have h0 : (i 0).val < 16 := (i 0).isLt
  have h1 : (i 1).val < 1 := (i 1).isLt
  have h2 : (i 2).val < 1024 := (i 2).isLt
  have hN : cfg0.N = 16 := N_0
  obtain ⟨t, ht⟩ : ∃ t : Fin cfg0.N, t.val = (i 0).val := ⟨⟨(i 0).val, by omega⟩, rfl⟩
  obtain ⟨-, -, -, -, -, -, -, -, -, -, -, -, e0, e1, e2⟩ := block_indices t
  refine ⟨t, flush0_6 t, ?_⟩
  rw [mem_block]
  intro a
  match a with
  | ⟨0, _⟩ =>
    show win0_6.index t (0 : Fin 3) * 1 ≤ (i 0).val ∧ (i 0).val < win0_6.index t (0 : Fin 3) * 1 + 1
    rw [e0]; omega
  | ⟨1, _⟩ =>
    show win0_6.index t (1 : Fin 3) * 1 ≤ (i 1).val ∧ (i 1).val < win0_6.index t (1 : Fin 3) * 1 + 1
    rw [e1]; omega
  | ⟨2, _⟩ =>
    show win0_6.index t (2 : Fin 3) * 1024 ≤ (i 2).val ∧ (i 2).val < win0_6.index t (2 : Fin 3) * 1024 + 1024
    rw [e2]; omega

/-- THE OUTPUT ARRAY after the run. -/
theorem final (c : Dev nD) : (dats m 0 c).arrAt 6 cfg0.N = outArr m c :=
  (dats m 0 c).arrAt_eq_of_cover 6 (outArr m c) (fun t _ => flushed_eq m c t) covered

end Cert.Rbf.Blocks

end
-- ==== Proof.KernelRun.lean ====
/-
  The kernel's program, run: its result array is the network of its arguments, and the arguments end unchanged.

  After the region the program re-lays the output array [16, 1, 1024] as [16384, 1] in row-major order: entry (b, ·) of
  the result is entry (b / 1024, 0, b % 1024) of the output array, the read-out of input row
  1024·(b / 1024) + b % 1024 = b.
-/
import proofs.«168390_j23167053595193_2_alg».proof.Proof.Blocks
import Idealize.ShloMosaic.Lib.StableHlo.Run

noncomputable section

namespace Cert.Rbf.KernelRun

open Cert.KernelIdeal Cert.KernelIdeal.Gen Idealize.ShloMosaic Idealize.ShloMosaic.TcCoe Idealize.SL.Sem
open Idealize.ShloMosaic.StableHlo Idealize.ShloMosaic.ValueIdx Cert.Rbf
open Idealize.ShloMosaic.Pipeline (Dat)

variable (m : (ℓ : Loc nD τ sig) → Buf (Elt Ideal) ℓ) (ρ : Dev nD → PrngReg)

/-- The output array re-laid [16384, 1], read at row `b`. -/
theorem relaid_apply (A : S16x1x1024.Idx → EReal) (b : Fin 16384) (u : Fin 1) :
    shapeCast S16384x1 A shapeCasts_S16x1x1024_S16384x1 (ix2 b u)
      = A (ix3 (⟨b.val / 1024, by have := b.isLt; omega⟩ : Fin 16) (0 : Fin 1) (⟨b.val % 1024, by omega⟩ : Fin 1024)) :=
  shapeCast_apply A _ _ _ (by
    have hu : u.val = 0 := by omega
    rw [Shape.rowMajor_val_three, Shape.rowMajor_val_two]
    show (b.val / 1024 * 1 + 0) * 1024 + b.val % 1024 = b.val * 1 + u.val
    omega)

/-- THE RESULT of the program after the lines that follow the region. -/
theorem result_eq (c : Dev nD) :
    (Pipeline.afterTail₀ cfgs (dats m) 0 (V0 m) [hostOps1] c main_v14 : S16384x1.Idx → EReal)
      = out (m ((c : Thread nD τ).loc main_arg0)) (m ((c : Thread nD τ).loc main_arg1)) (m ((c : Thread nD τ).loc main_arg2)) (m ((c : Thread nD τ).loc main_arg3)) (m ((c : Thread nD τ).loc main_arg4)) := by
  have hw : Pipeline.withArrays (cfgs 0).spec c (V0 m c) (fun w => (dats m 0 c).arrAt w (cfgs 0).N) (Proc.devRef .tc main_v13)
      = Blocks.outArr m c :=
    (Pipeline.withArrays_arr spec0 launch0.win.arr_inj c _ _ 6).trans (Blocks.final m c)
  have e : (Pipeline.afterTail₀ cfgs (dats m) 0 (V0 m) [hostOps1] c main_v14 : S16384x1.Idx → EReal)
      = shapeCast S16384x1 (Blocks.outArr m c) shapeCasts_S16x1x1024_S16384x1 := by
    unfold Pipeline.afterTail₀
    show StableHlo.after hostOps1 _ (Proc.devRef .tc main_v14) = _
    after_results
    rw [hw]
    rfl
  rw [e]
  funext i
  obtain ⟨b, u, rfl⟩ : ∃ (b : Fin 16384) (u : Fin 1), i = ix2 b u := ⟨i 0, i 1, eq_ix2 i⟩
  refine (relaid_apply _ b u).trans ?_
  unfold Blocks.outArr out
  exact congrArg (row (m ((c : Thread nD τ).loc main_arg0)) (m ((c : Thread nD τ).loc main_arg1)) (m ((c : Thread nD τ).loc main_arg2)) (m ((c : Thread nD τ).loc main_arg3)) (m ((c : Thread nD τ).loc main_arg4)))
    (Fin.ext (by show b.val / 1024 * 1024 + b.val % 1024 = b.val; omega))

/-- THE RUN: the result array at the network of the arguments, the arguments unchanged. -/
theorem run : θ_run defs (onTc (τ := τ) (main (F := Ideal))) ⟨m, fun _ => 0, ρ⟩ fun r => ∀ c : Dev nD,
      r.2.mem ((c.tc : Thread nD τ).loc main_v14) = out (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v14 (Pipeline.mem_restRefs_of main_v14 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c)⟩)
    (run_main m ρ)

end Cert.Rbf.KernelRun

end
-- ==== Proof.lean ====
/-
  The five claims of this certificate.

  The two programs compute a radial-basis network, `Cert.Rbf.out` (Proof/Spec.lean): for each of 16384 input rows the
  sum over 1024 centres of exp(-(clamped squared distance) / width) · weight, plus an offset.  The reference
  (Proof/RefRead.lean, over its generated run and read-at-an-index lemmas) divides by the width; the kernel
  (Proof/Body.lean: what one block of 1024 rows stores; Proof/Entry.lean: the arrays the host prepares; Proof/Blocks.lean:
  the sixteen blocks tile the output; Proof/KernelRun.lean: the re-laid result) multiplies by the reciprocal the host
  took beforehand.  The width 2σ² + ε is never zero on the extended reals, so the two agree at every input: the
  equivalence does not use the precondition.  The frames of the two kernel programs are the generated ones, the
  reference's is its generated run with the result dropped; the idealization rewrote nothing, so `preserves` is trivial.
-/
import proofs.«168390_j23167053595193_2_alg».proof.Defs
import proofs.«168390_j23167053595193_2_alg».proof.Proof.Gen.Kernel
import proofs.«168390_j23167053595193_2_alg».proof.Proof.Gen.Kernel.Skeleton
import proofs.«168390_j23167053595193_2_alg».proof.Proof.Gen.Kernel.Launch
import proofs.«168390_j23167053595193_2_alg».proof.Proof.Gen.Kernel.Points
import proofs.«168390_j23167053595193_2_alg».proof.Proof.Gen.Kernel.Frame
import proofs.«168390_j23167053595193_2_alg».proof.Proof.Gen.KernelIdeal
import proofs.«168390_j23167053595193_2_alg».proof.Proof.Gen.KernelIdeal.Skeleton
import proofs.«168390_j23167053595193_2_alg».proof.Proof.Gen.KernelIdeal.Launch
import proofs.«168390_j23167053595193_2_alg».proof.Proof.Gen.KernelIdeal.Points
import proofs.«168390_j23167053595193_2_alg».proof.Proof.Gen.KernelIdeal.Frame
import proofs.«168390_j23167053595193_2_alg».proof.Proof.Gen.ReferenceIdeal
import proofs.«168390_j23167053595193_2_alg».proof.Proof.Gen.Pre_finite_inputs
import proofs.«168390_j23167053595193_2_alg».proof.Proof.Gen.ReferenceIdeal.Run
import proofs.«168390_j23167053595193_2_alg».proof.Proof.Gen.ReferenceIdeal.Read
import proofs.«168390_j23167053595193_2_alg».proof.Proof.RefRead
import proofs.«168390_j23167053595193_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the network of their arguments in the result array; the arguments agree. -/
theorem algebraic : Cert.algebraic_KernelIdeal_ReferenceIdeal := by
  intro m ρ m' ρ' _ hagree
  refine ⟨fun c => Cert.Rbf.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.Rbf.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.Rbf.Ref.result_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
